-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S2048x512 : Shape := ⟨2, ![2048, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .local _ .vmem, ⟨0, _⟩ => ⟨S2048x512, .f32⟩
  | .local _ .vmem, ⟨1, _⟩ => ⟨S2048x512, .f32⟩
  | .local _ .vmem, ⟨2, _⟩ => ⟨S512x512, .f32⟩
  | .local _ .vmem, ⟨3, _⟩ => ⟨S512x512, .f32⟩
  | .local _ .vmem, ⟨4, _⟩ => ⟨S2048x512, .f32⟩
  | .local _ .vmem, ⟨5, _⟩ => ⟨S2048x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  iota_S512x512_d0_w32 : S512x512.Iotas .tc 32 [0]
  natLt_1_32 : 1 < 32
  iota_S512x512_d1_w32 : S512x512.Iotas .tc 32 [1]
  inb_S512x512_S512x512_0_0 : ∀ a, (![0, 0] : Fin 2 → Nat) a + S512x512.size a ≤ S512x512.size a
  h_S512x512 : 0 < S512x512.numel
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  dot_S2048x512_S512x512_S2048x512_1_1_0_0_n_n_wf : DotDims.WF S2048x512 S512x512 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .f32 = 32 ∨ (Rect.block (s := S8192x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x4096.size a
  hwx0_1 : ∀ i : grid0.Coords, EltTy.bits .f32 = 32 ∨ (Rect.block (s := S4096x4096) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S8192x4096.size a
  hwx0_2 : ∀ i : grid0.Coords, EltTy.bits .f32 = 32 ∨ (Rect.block (s := S8192x4096) S2048x512.size (cc0_transform_2 i) (hinb0_2 i)).WholeWords (EltTy.packing .f32)

variable [Facts₀]

def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S64x64 : Shape := ⟨2, ![64, 64]⟩
abbrev S_ : Shape := ⟨0, ![]⟩
abbrev S64x1x64x1 : Shape := ⟨4, ![64, 1, 64, 1]⟩
abbrev S1x64x1x64 : Shape := ⟨4, ![1, 64, 1, 64]⟩
abbrev S64x64x64x64 : Shape := ⟨4, ![64, 64, 64, 64]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S64x64, .i32⟩
  | .hbm, ⟨3, _⟩ => ⟨S64x64, .i32⟩
  | .hbm, ⟨4, _⟩ => ⟨S_, .i32⟩
  | .hbm, ⟨5, _⟩ => ⟨S64x64, .i32⟩
  | .hbm, ⟨6, _⟩ => ⟨S64x64, .i32⟩
  | .hbm, ⟨7, _⟩ => ⟨S64x64, .i1⟩
  | .hbm, ⟨8, _⟩ => ⟨S64x64, .f32⟩
  | .hbm, ⟨9, _⟩ => ⟨S_, .f32⟩
  | .hbm, ⟨10, _⟩ => ⟨S64x64, .f32⟩
  | .hbm, ⟨11, _⟩ => ⟨S64x1x64x1, .f32⟩
  | .hbm, ⟨12, _⟩ => ⟨S1x64x1x64, .f32⟩
  | .hbm, ⟨13, _⟩ => ⟨S64x64x64x64, .f32⟩
  | .hbm, ⟨14, _⟩ => ⟨S64x64x64x64, .f32⟩
  | .hbm, ⟨15, _⟩ => ⟨S64x64x64x64, .f32⟩
  | .hbm, ⟨16, _⟩ => ⟨S4096x4096, .f32⟩
  | .hbm, ⟨17, _⟩ => ⟨S4096x4096, .f32⟩
  | .hbm, ⟨18, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩

abbrev nD : Nat := 1
abbrev τ : Topo := Topo.v7x

variable {F : FTy → Type} [FloatOps F]

class Facts₀ : Prop where
  bcast_S_S64x64 : S_.BroadcastsInDim S64x64 (![] : Fin 0 → Fin S64x64.rank)
  bcast_S64x64_S64x1x64x1_0_2 : S64x64.BroadcastsInDim S64x1x64x1 (![0, 2] : Fin 2 → Fin S64x1x64x1.rank)
  bcast_S64x64_S1x64x1x64_1_3 : S64x64.BroadcastsInDim S1x64x1x64 (![1, 3] : Fin 2 → Fin S1x64x1x64.rank)
  bcast_S64x1x64x1_S64x64x64x64_0_1_2_3 : S64x1x64x1.BroadcastsInDim S64x64x64x64 (![0, 1, 2, 3] : Fin 4 → Fin S64x64x64x64.rank)
  bcast_S1x64x1x64_S64x64x64x64_0_1_2_3 : S1x64x1x64.BroadcastsInDim S64x64x64x64 (![0, 1, 2, 3] : Fin 4 → Fin S64x64x64x64.rank)
  shapeCasts_S64x64x64x64_S4096x4096 : S64x64x64x64.ShapeCasts S4096x4096
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.BlockDiagSum.lean ====
/-
  The block-diagonal product, with no program in sight.

  A weight matrix w of 4096 x 4096 entries is masked to its 64 diagonal blocks of 64 x 64 entries, and every row
  of x is multiplied against every masked row of w: entry (r, o) of the result is the sum over all 4096 columns k
  of x[r, k] * (w[o, k] * mask(o, k)), where mask(o, k) is one when o and k lie in the same block of 64 and zero
  otherwise. Rows o of one tile of 512 only meet columns of the same tile with a nonzero mask, so the sum over 4096
  columns is the sum over the 512 columns of the tile that holds o: outside it every term is x * (w * 0), which is 0
  on the extended reals whatever x and w are (0 absorbs at the infinities too), so no finiteness is used.
-/
import Idealize.ShloMosaic.PureOps.Ideal
import Idealize.ShloMosaic.Lib.ValueIdx
import Mathlib.Algebra.BigOperators.Fin
import Mathlib.Logic.Equiv.Fin.Basic

noncomputable section

namespace Cert.BlockDiag

open Idealize.ShloMosaic Idealize.ShloMosaic.ValueIdx

/-- The block-diagonal mask: one where the two positions fall in the same block of 64, zero elsewhere. -/
def bmask (a b : ℕ) : EReal := if a / 64 = b / 64 then 1 else 0

/-- Inside one tile of 512 the mask only sees the positions within the tile. -/
theorem bmask_tile (j q k : ℕ) : bmask (512 * j + q) (512 * j + k) = bmask q k := by
  unfold bmask; exact if_congr (by omega) rfl rfl

/-- Positions of different tiles of 512 are in different blocks of 64. -/
theorem bmask_off (o k : ℕ) (h : k / 512 ≠ o / 512) : bmask o k = 0 := by
  unfold bmask; exact if_neg (by omega)

/-- Entry (r, o) of the masked product: the sum over all 4096 columns. -/
def entry (x : (⟨2, ![8192, 4096]⟩ : Shape).Idx → EReal) (w : (⟨2, ![4096, 4096]⟩ : Shape).Idx → EReal)
    (r : Fin 8192) (o : Fin 4096) : EReal :=
  ∑ k : Fin 4096, x (ix2 r k) * (w (ix2 o k) * bmask o.val k.val)

/-- The masked product x · (w ⊙ mask)ᵀ as one function of the two arrays, index by index. -/
def G (x : (⟨2, ![8192, 4096]⟩ : Shape).Idx → EReal) (w : (⟨2, ![4096, 4096]⟩ : Shape).Idx → EReal) :
    (⟨2, ![8192, 4096]⟩ : Shape).Idx → EReal :=
  fun i => entry x w ⟨(i 0).val, (i 0).isLt⟩ ⟨(i 1).val, (i 1).isLt⟩

/-- A sum over 4096 positions whose terms vanish outside tile j of 512 is the sum over that tile. -/
theorem sum_tile {M : Type*} [AddCommMonoid M] (f : Fin 4096 → M) (j : Fin 8)
    (h : ∀ k' : Fin 4096, k'.val / 512 ≠ j.val → f k' = 0) :
    ∑ k' : Fin 4096, f k' = ∑ k : Fin 512, f ⟨512 * j.val + k.val, by have := j.isLt; have := k.isLt; omega⟩ := by
  have e : ∑ k' : Fin 4096, f k' = ∑ p : Fin 8 × Fin 512, f (finProdFinEquiv p) :=
    (Equiv.sum_comp (finProdFinEquiv (m := 8) (n := 512)) f).symm
  rw [e, Fintype.sum_prod_type, Finset.sum_eq_single j]
  · refine Finset.sum_congr rfl fun k _ => congrArg f (Fin.ext ?_)
    show k.val + 512 * j.val = 512 * j.val + k.val
    omega
  · intro j' _ hne
    refine Finset.sum_eq_zero fun k _ => h _ ?_
    show (k.val + 512 * j'.val) / 512 ≠ j.val
    have hk := k.isLt
    have hj : j'.val ≠ j.val := fun e => hne (Fin.ext e)
    omega
  · intro hj; exact absurd (Finset.mem_univ j) hj

/-- Entry (r, 512 j + q) of the masked product is the sum over tile j alone, with the mask read inside the tile. -/
theorem entry_tile (x : (⟨2, ![8192, 4096]⟩ : Shape).Idx → EReal) (w : (⟨2, ![4096, 4096]⟩ : Shape).Idx → EReal)
    (r : Fin 8192) (j : Fin 8) (q : Fin 512) (o : Fin 4096) (ho : o.val = 512 * j.val + q.val) :
    entry x w r o = ∑ k : Fin 512, x (ix2 r (⟨512 * j.val + k.val, by have := j.isLt; have := k.isLt; omega⟩ : Fin 4096))
      * (w (ix2 o (⟨512 * j.val + k.val, by have := j.isLt; have := k.isLt; omega⟩ : Fin 4096)) * bmask q.val k.val) := by
  unfold entry
  rw [sum_tile _ j]
  · refine Finset.sum_congr rfl fun k _ => ?_
    show x _ * (w _ * bmask o.val (512 * j.val + k.val)) = _
    rw [ho, bmask_tile]
  · intro k' hk
    have hq := q.isLt
    rw [bmask_off o.val k'.val (by omega), mul_zero, mul_zero]

/-- The masked product at an array index whose row is r and whose column is o = 512 j + q: the sum over tile j. -/
theorem G_tile (x : (⟨2, ![8192, 4096]⟩ : Shape).Idx → EReal) (w : (⟨2, ![4096, 4096]⟩ : Shape).Idx → EReal)
    (i : (⟨2, ![8192, 4096]⟩ : Shape).Idx) (r : Fin 8192) (o : Fin 4096) (j : Fin 8) (q : Fin 512)
    (hr : (i 0).val = r.val) (ho : (i 1).val = o.val) (hj : o.val = 512 * j.val + q.val) :
    G x w i = ∑ k : Fin 512, x (ix2 r (⟨512 * j.val + k.val, by have := j.isLt; have := k.isLt; omega⟩ : Fin 4096))
      * (w (ix2 o (⟨512 * j.val + k.val, by have := j.isLt; have := k.isLt; omega⟩ : Fin 4096)) * bmask q.val k.val) := by
  have er : (⟨(i 0).val, (i 0).isLt⟩ : Fin 8192) = r := Fin.ext hr
  have eo : (⟨(i 1).val, (i 1).isLt⟩ : Fin 4096) = o := Fin.ext ho
  show entry x w ⟨(i 0).val, (i 0).isLt⟩ ⟨(i 1).val, (i 1).isLt⟩ = _
  rw [er, eo]
  exact entry_tile x w r j q o hj

end Cert.BlockDiag

end
-- ==== Proof.BodyMask.lean ====
/-
  The mask the kernel body builds, read at an index.

  The body numbers the rows and the columns of a 512 x 512 tile (an iota along each axis), divides each number by 64
  rounding toward minus infinity (a signed division toward zero, corrected by one where the signs differ and the
  remainder is not zero; on 0 .. 511 nothing is ever corrected), compares the two quotients and turns the one-bit
  answer into a float. At row q and column k the result is one when q and k are in the same block of 64 and zero
  otherwise: the block-diagonal mask restricted to the tile. The row quotient depends on the row alone and the column
  quotient on the column alone, so each is checked over its 512 positions.
-/
import proofs.«106740_j78958678769810_1_alg».proof.Proof.Gen.KernelIdeal.Skeleton
import proofs.«106740_j78958678769810_1_alg».proof.Proof.BlockDiagSum
import Idealize.ShloMosaic.PureOps.Ideal
import Idealize.ShloMosaic.Lib.ValueIdx

noncomputable section

namespace Cert.KernelIdeal.BodyMask

open Cert.KernelIdeal Cert.KernelIdeal.Gen Idealize.ShloMosaic Idealize.ShloMosaic.ValueIdx
open Cert.BlockDiag

/-- The column's block number as the body computes it: the quotient by 64, lowered by one where the correction
    applies. -/
def colBlock : IVec S512x512 32 :=
  select (andi k0_pay4 (cmpi .ne k0_pay5 k0_pay6)) (subi k0_pay3 (broadcast S512x512 1#32)) k0_pay3

/-- The row's block number is the row divided by 64 (checked on each of the 512 rows). -/
theorem rowBlock_at : ∀ q : Fin 512, k0_pay2 (ix2 q (0 : Fin 512)) = BitVec.ofNat 32 (q.val / 64) := by
  decide +kernel

/-- The column's block number is the column divided by 64 (checked on each of the 512 columns). -/
theorem colBlock_at : ∀ k : Fin 512, colBlock (ix2 (0 : Fin 512) k) = BitVec.ofNat 32 (k.val / 64) := by
  decide +kernel

/-- The row's block number does not look at the column. -/
theorem rowBlock_apply (q k : Fin 512) : k0_pay2 (ix2 q k) = BitVec.ofNat 32 (q.val / 64) :=
  rowBlock_at q

/-- The column's block number does not look at the row. -/
theorem colBlock_apply (q k : Fin 512) : colBlock (ix2 q k) = BitVec.ofNat 32 (k.val / 64) :=
  colBlock_at k

/-- Two block numbers below 8, compared and widened to 32 bits, read as a signed integer: one if equal, else zero. -/
theorem eq_word : ∀ a c : Fin 8,
    ((IntOp.cmpi .eq (BitVec.ofNat 32 a.val) (BitVec.ofNat 32 c.val)).setWidth 32).toInt = if a.val = c.val then 1 else 0 := by
  decide

/-- The float mask of the body at row q and column k of the tile is the block-diagonal mask there. -/
theorem mask_apply (q k : Fin 512) :
    (sitofp .f32 (extui 32 (cmpi .eq k0_pay2 colBlock) natLt_1_32) : FVec Ideal S512x512 .f32) (ix2 q k)
      = bmask q.val k.val := by
  show ((((IntOp.cmpi .eq (k0_pay2 (ix2 q k)) (colBlock (ix2 q k))).setWidth 32).toInt : ℝ) : EReal) = _
  rw [rowBlock_apply, colBlock_apply]
  have hq := q.isLt
  have hk := k.isLt
  have key := eq_word ⟨q.val / 64, by omega⟩ ⟨k.val / 64, by omega⟩
  rw [show ((IntOp.cmpi .eq (BitVec.ofNat 32 (q.val / 64)) (BitVec.ofNat 32 (k.val / 64))).setWidth 32).toInt
      = if q.val / 64 = k.val / 64 then 1 else 0 from key]
  unfold bmask
  split_ifs <;> simp

end Cert.KernelIdeal.BodyMask

end
-- ==== Proof.BodyValue.lean ====
/-
  What the kernel body stores, read at an index.

  The body multiplies the weight tile by the mask, rounds both operands to bf16 (no change on the extended reals) and
  multiplies the 2048 x 512 tile of x against the masked 512 x 512 tile of w, contracting the second axis of both,
  into a zero accumulator. So at row p and column q of the output tile it stores the sum over the 512 columns k of the
  tile of x[p, k] * (w[q, k] * mask(q, k)).
-/
import proofs.«106740_j78958678769810_1_alg».proof.Proof.Gen.KernelIdeal.Skeleton
import proofs.«106740_j78958678769810_1_alg».proof.Proof.BodyMask
import Idealize.ShloMosaic.PureOps.Ideal.Laws
import Idealize.ShloMosaic.Lib.ValueIdx

noncomputable section

namespace Cert.KernelIdeal.BodyValue

open Cert.KernelIdeal Cert.KernelIdeal.Gen Idealize.ShloMosaic Idealize.ShloMosaic.ValueIdx
open Cert.BlockDiag Cert.KernelIdeal.BodyMask

/-- The product's shape record: both operands contract their second axis and keep their first. -/
abbrev D := dot_S2048x512_S512x512_S2048x512_1_1_0_0_n_n

theorem lhs_0 (i : S2048x512.Idx) (u : D.contr.Idx) : (D.lhsIdx i u 0).val = (i 0).val := by
  unfold DotDims.lhsIdx
  rw [dif_neg (show ¬(0 : Fin S2048x512.rank) ∈ D.lhsBatch by decide), dif_pos (show (0 : Fin S2048x512.rank) ∈ D.lhsNonContracting by decide)]
  rfl

theorem lhs_1 (i : S2048x512.Idx) (u : D.contr.Idx) : (D.lhsIdx i u 1).val = (u ⟨0, by decide⟩).val :=
  D.lhsIdx_val_of_single rfl i u

theorem rhs_0 (i : S2048x512.Idx) (u : D.contr.Idx) : (D.rhsIdx i u 0).val = (i 1).val := by
  unfold DotDims.rhsIdx
  rw [dif_neg (show ¬(0 : Fin S512x512.rank) ∈ D.rhsBatch by decide), dif_pos (show (0 : Fin S512x512.rank) ∈ D.rhsNonContracting by decide)]
  rfl

theorem rhs_1 (i : S2048x512.Idx) (u : D.contr.Idx) : (D.rhsIdx i u 1).val = (u ⟨0, by decide⟩).val :=
  D.rhsIdx_val_of_single rfl i u

/-- The product into a zero accumulator at (p, q): the sum over k of the left operand at (p, k) times the right at (q, k). -/
theorem matmul_at (a : FVec Ideal S2048x512 .bf16) (b : FVec Ideal S512x512 .bf16) (p : Fin 2048) (q : Fin 512) :
    FloatOps.matmul D none a b (constant S2048x512 .f32 0x00000000#32) (ix2 p q) = ∑ k : Fin 512, a (ix2 p k) * b (ix2 q k) := by
  rw [Ideal.matmul_constant_zero_apply, ← Equiv.sum_comp (contrEquiv1 D 512 rfl rfl).symm]
  refine Finset.sum_congr rfl fun k _ => ?_
  have hk := contrEquiv1_symm_val D 512 rfl rfl k
  have el : D.lhsIdx (ix2 p q) ((contrEquiv1 D 512 rfl rfl).symm k) = ix2 p k := funext fun a => Fin.ext (by
    match a with
    | ⟨0, _⟩ => exact lhs_0 _ _
    | ⟨1, _⟩ => exact (lhs_1 _ _).trans hk)
  have er : D.rhsIdx (ix2 p q) ((contrEquiv1 D 512 rfl rfl).symm k) = ix2 q k := funext fun a => Fin.ext (by
    match a with
    | ⟨0, _⟩ => exact rhs_0 _ _
    | ⟨1, _⟩ => exact (rhs_1 _ _).trans hk)
  rw [el, er]

/-- What the body stores at (p, q) of the output tile, from the tile x0 of x and the tile x1 of w it loaded. -/
theorem stored_at (x1 : FVec Ideal S512x512 .f32) (x0 : FVec Ideal S2048x512 .f32) (p : Fin 2048) (q : Fin 512) :
    k0_pay1 k0_pay2 k0_pay3 k0_pay4 k0_pay5 k0_pay6 x1 x0 (ix2 p q)
      = ∑ k : Fin 512, x0 (ix2 p k) * (x1 (ix2 q k) * bmask q.val k.val) := by
  show FloatOps.matmul D none (truncf .bf16 x0 bitsLt_bf16_f32)
      (truncf .bf16 (mulf x1 (sitofp .f32 (extui 32 (cmpi .eq k0_pay2 colBlock) natLt_1_32))) bitsLt_bf16_f32)
      (constant S2048x512 .f32 0x00000000#32) (ix2 p q) = _
  rw [matmul_at]
  refine Finset.sum_congr rfl fun k _ => ?_
  show x0 (ix2 p k) * (x1 (ix2 q k) * (sitofp .f32 (extui 32 (cmpi .eq k0_pay2 colBlock) natLt_1_32) : FVec Ideal S512x512 .f32) (ix2 q k)) = _
  rw [mask_apply]

end Cert.KernelIdeal.BodyValue

end
-- ==== Proof.TileValue.lean ====
/-
  From the tiles to the whole array.

  The grid has 8 x 4 points; point (j, i) reads rows 2048 i .. 2048 i + 2047 and columns 512 j .. 512 j + 511 of x,
  the diagonal tile (rows and columns 512 j .. 512 j + 511) of w, and writes rows 2048 i .. and columns 512 j .. of the
  output. What it writes at (p, q) of its tile is the sum over the tile's 512 columns of x times the masked w, which is
  entry (2048 i + p, 512 j + q) of the masked product: the columns outside tile j contribute nothing there. The 32 tiles
  cover the output array, so after the run the array is the masked product of the two argument arrays.
-/
import proofs.«106740_j78958678769810_1_alg».proof.Proof.Gen.KernelIdeal.Value
import proofs.«106740_j78958678769810_1_alg».proof.Proof.BodyValue
import Idealize.ShloMosaic.Lib.Pipeline.Value

noncomputable section

namespace Cert.KernelIdeal.TileValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.BlockDiag

variable (m : (ℓ : Loc nD τ sig) → Buf (Elt Ideal) ℓ) (ρ : Dev nD → PrngReg)

theorem zero_off : (![0, 0] : Fin 2 → Nat) = fun _ => 0 := funext fun a => by fin_cases a <;> rfl

/-- The index maps over the 32 grid points: the tile of x moves with the output's tile, the tile of w is the diagonal
    one at the output's column tile, and the output's tile numbers stay below 4 and 8. -/
theorem tile_facts : ∀ t : Fin cfg0.N,
    win0_0.index t (0 : Fin 2) = win0_2.index t (0 : Fin 2)
    ∧ win0_0.index t (1 : Fin 2) = win0_2.index t (1 : Fin 2)
    ∧ win0_1.index t (0 : Fin 2) = win0_2.index t (1 : Fin 2)
    ∧ win0_1.index t (1 : Fin 2) = win0_2.index t (1 : Fin 2)
    ∧ win0_2.index t (0 : Fin 2) ≤ 3 ∧ win0_2.index t (1 : Fin 2) ≤ 7 :=
  (by decide +kernel : ∀ t : Fin grid0.N, _)

/-- Every output tile is some grid point's. -/
theorem tile_onto : ∀ (a : Fin 4) (b : Fin 8), ∃ t : Fin cfg0.N, win0_2.index t = ![a.val, b.val] :=
  (by decide +kernel : ∀ (a : Fin 4) (b : Fin 8), ∃ t : Fin grid0.N, win0_2.index t = ![a.val, b.val])

/-- The tile of x at a point, read at (p, k): x at the tile's offset plus (p, k). -/
theorem xtile_apply (c : Dev nD) (t : Fin cfg0.N) (p : Fin 2048) (k : Fin 512) (r : Fin 8192) (k' : Fin 4096)
    (hr : r.val = win0_0.index t (0 : Fin 2) * 2048 + p.val) (hk : k'.val = win0_0.index t (1 : Fin 2) * 512 + k.val) :
    iblk m c 0 t (ix2 p k) = V m c main_arg0 (ix2 r k') := by
  show V m c main_arg0 (((cfg0.win 0).blk t).view.emb (ix2 p k)) = V m c main_arg0 (ix2 r k')
  refine congrArg (V m c main_arg0) (funext fun a => Fin.ext ?_)
  match a with
  | ⟨0, _⟩ => show win0_0.index t (0 : Fin 2) * 2048 + 1 * p.val = r.val; omega
  | ⟨1, _⟩ => show win0_0.index t (1 : Fin 2) * 512 + 1 * k.val = k'.val; omega

/-- The tile of w at a point, read at (q, k): w at the tile's offset plus (q, k). -/
theorem wtile_apply (c : Dev nD) (t : Fin cfg0.N) (q : Fin 512) (k : Fin 512) (o : Fin 4096) (k' : Fin 4096)
    (ho : o.val = win0_1.index t (0 : Fin 2) * 512 + q.val) (hk : k'.val = win0_1.index t (1 : Fin 2) * 512 + k.val) :
    iblk m c 1 t (ix2 q k) = V m c main_arg1 (ix2 o k') := by
  show V m c main_arg1 (((cfg0.win 1).blk t).view.emb (ix2 q k)) = V m c main_arg1 (ix2 o k')
  refine congrArg (V m c main_arg1) (funext fun a => Fin.ext ?_)
  match a with
  | ⟨0, _⟩ => show win0_1.index t (0 : Fin 2) * 512 + 1 * q.val = o.val; omega
  | ⟨1, _⟩ => show win0_1.index t (1 : Fin 2) * 512 + 1 * k.val = k'.val; omega

/-- What point t writes back is tile t of the masked product of the argument arrays. -/
theorem flushed_eq (c : Dev nD) (t : Fin cfg0.N) :
    (dats m 0 c).flushed 2 t = ((cfg0.win 2).blk t).view.read (Elt Ideal) (G (V m c main_arg0) (V m c main_arg1)) := by
  rw [flushed2]
  unfold out0_2
  rw [View.canon_unit_zero zero_off]
  simp only [View.ld_unit_zero (S := S512x512) zero_off, View.ld_unit_zero (S := S2048x512) zero_off]
  obtain ⟨e0, e1, e2, e3, e4, e5⟩ := tile_facts t
  funext y
  obtain ⟨p, q, rfl⟩ : ∃ (p : Fin 2048) (q : Fin 512), y = ix2 p q := ⟨y 0, y 1, eq_ix2 (n0 := 2048) (n1 := 512) y⟩
  have hp := p.isLt
  have hq := q.isLt
  show k0_pay1 k0_pay2 k0_pay3 k0_pay4 k0_pay5 k0_pay6 (iblk m c 1 t) (iblk m c 0 t) (ix2 p q)
    = G (V m c main_arg0) (V m c main_arg1) (((cfg0.win 2).blk t).view.emb (ix2 p q))
  refine (BodyValue.stored_at (iblk m c 1 t) (iblk m c 0 t) p q).trans ?_
  refine Eq.trans ?_ (G_tile (V m c main_arg0) (V m c main_arg1) (((cfg0.win 2).blk t).view.emb (ix2 p q))
    ⟨win0_2.index t (0 : Fin 2) * 2048 + p.val, by omega⟩ ⟨win0_2.index t (1 : Fin 2) * 512 + q.val, by omega⟩
    ⟨win0_2.index t (1 : Fin 2), by omega⟩ q
    (by show win0_2.index t (0 : Fin 2) * 2048 + 1 * p.val = win0_2.index t (0 : Fin 2) * 2048 + p.val; omega)
    (by show win0_2.index t (1 : Fin 2) * 512 + 1 * q.val = win0_2.index t (1 : Fin 2) * 512 + q.val; omega)
    (by show win0_2.index t (1 : Fin 2) * 512 + q.val = 512 * win0_2.index t (1 : Fin 2) + q.val; omega)).symm
  refine Finset.sum_congr rfl fun k _ => ?_
  have hk := k.isLt
  rw [xtile_apply m c t p k ⟨win0_2.index t (0 : Fin 2) * 2048 + p.val, by omega⟩
      ⟨512 * win0_2.index t (1 : Fin 2) + k.val, by omega⟩
      (by show win0_2.index t (0 : Fin 2) * 2048 + p.val = win0_0.index t (0 : Fin 2) * 2048 + p.val; omega)
      (by show 512 * win0_2.index t (1 : Fin 2) + k.val = win0_0.index t (1 : Fin 2) * 512 + k.val; omega),
    wtile_apply m c t q k ⟨win0_2.index t (1 : Fin 2) * 512 + q.val, by omega⟩
      ⟨512 * win0_2.index t (1 : Fin 2) + k.val, by omega⟩
      (by show win0_2.index t (1 : Fin 2) * 512 + q.val = win0_1.index t (0 : Fin 2) * 512 + q.val; omega)
      (by show 512 * win0_2.index t (1 : Fin 2) + k.val = win0_1.index t (1 : Fin 2) * 512 + k.val; omega)]

/-- An array index is in point t's output tile iff each coordinate is in the tile's range on its axis. -/
theorem mem_tile (t : Fin cfg0.N) (i : S8192x4096.Idx) :
    i ∈ ((cfg0.win 2).blk t).view.set ↔ ∀ a : Fin 2, win0_2.index t a * S2048x512.size a ≤ (i a).val
      ∧ (i a).val < win0_2.index t a * S2048x512.size a + S2048x512.size a := by
  show i ∈ ((View.whole main_v0).slice (win0_2.rect t)).set ↔ _
  rw [View.set_slice_whole, Rect.mem_set_unit]
  exact Iff.rfl

/-- Every index of the output array is in some point's tile: the one numbered by its row / 2048 and column / 512. -/
theorem cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := tile_onto ⟨(i 0).val / 2048, by omega⟩ ⟨(i 1).val / 512, by omega⟩
  have q0 : win0_2.index t (0 : Fin 2) = (i 0).val / 2048 := congrFun ht 0
  have q1 : win0_2.index t (1 : Fin 2) = (i 1).val / 512 := congrFun ht 1
  refine ⟨t, flush0_2 t, ?_⟩
  rw [mem_tile]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 512 ≤ (i 1).val ∧ (i 1).val < win0_2.index t (1 : Fin 2) * 512 + 512; omega

/-- The output array after the run is the masked product of the argument arrays. -/
theorem final (c : Dev nD) :
    (dats m 0 c).arrAt 2 cfg0.N = G (m ((c : Thread nD τ).loc main_arg0)) (m ((c : Thread nD τ).loc main_arg1)) :=
  (dats m 0 c).arrAt_eq_of_cover 2 (G (V m c main_arg0) (V m c main_arg1)) (fun t _ => flushed_eq m c t) cover

/-- The kernel's run: the result array ends at the masked product of the argument arrays, which end unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.TileValue

end
-- ==== Proof.RefValue.lean ====
/-
  The reference's result is the masked product.

  The reference builds the 4096 x 4096 mask as a Kronecker product: the 64 x 64 identity (row number equals column
  number, as a float) against a 64 x 64 array of ones, laid out as [64, 64, 64, 64] and reshaped to [4096, 4096]. Entry
  (o, k) of the reshaped array sits at (o / 64, o % 64, k / 64, k % 64), so it holds identity[o / 64, k / 64] * 1: the
  block-diagonal mask. The weight is multiplied by it entry by entry, and the product of x with the masked weight
  contracts the second axis of both: entry (r, o) is the sum over the 4096 columns k of x[r, k] * (w[o, k] * mask(o, k)).
-/
import proofs.«106740_j78958678769810_1_alg».proof.Proof.Gen.ReferenceIdeal.Read
import proofs.«106740_j78958678769810_1_alg».proof.Proof.BlockDiagSum
import Idealize.ShloMosaic.PureOps.IdealRules

noncomputable section

namespace Cert.ReferenceIdeal.RefValue

open Cert.ReferenceIdeal Cert.ReferenceIdeal.Gen Cert.ReferenceIdeal.Read Idealize.ShloMosaic Idealize.ShloMosaic.ValueIdx
open Cert.BlockDiag

/-- Two block numbers below 64: the identity's one-bit entry, read as an unsigned integer, is one if equal, else zero. -/
theorem eye_word : ∀ a c : Fin 64,
    (IntOp.cmpi .eq (IntOp.addi (BitVec.ofNat 32 a.val) 0#32) (BitVec.ofNat 32 c.val)).toNat = if a.val = c.val then 1 else 0 := by
  decide +kernel

/-- The float word 0x3F800000 is the number one. -/
theorem one_word : Ideal.ofBits .f32 0x3F800000#32 = 1 := IdealRules.sign_bit.ideal_onePat .f32

/-- The reshaped Kronecker product at (o, k) is the block-diagonal mask. -/
theorem kron_apply (o k : Fin 4096) : val_main_v7 (F := Ideal) (ix2 o k) = bmask o.val k.val := by
  rw [val_main_v7_apply, val_main_call0_v4_apply, val_main_call0_v2_apply, val_main_call0_v0_apply, val_main_v5_apply,
    val_main_v4_apply, val_main_v3_apply, val_main_v0_apply, val_main_v2_apply, val_main_c_apply, val_main_v1_apply,
    val_main_call0_v3_apply, val_main_call0_v1_apply, val_main_v6_apply, val_main_cst_apply]
  have ho := o.isLt
  have hk := k.isLt
  show (((IntOp.cmpi .eq (IntOp.addi (BitVec.ofNat 32 ((o.val * 4096 + k.val) / 262144)) 0#32)
      (BitVec.ofNat 32 ((o.val * 4096 + k.val) / 64 % 64))).toNat : ℝ) : EReal) * Ideal.ofBits .f32 0x3F800000#32 = _
  rw [show (o.val * 4096 + k.val) / 262144 = o.val / 64 by omega, show (o.val * 4096 + k.val) / 64 % 64 = k.val / 64 by omega]
  have key := eye_word ⟨o.val / 64, by omega⟩ ⟨k.val / 64, by omega⟩
  rw [show (IntOp.cmpi .eq (IntOp.addi (BitVec.ofNat 32 (o.val / 64)) 0#32) (BitVec.ofNat 32 (k.val / 64))).toNat
      = if o.val / 64 = k.val / 64 then 1 else 0 from key, one_word, mul_one]
  unfold bmask
  split_ifs <;> simp

/-- The reference's last stage, as a function of the two argument arrays, is the masked product. -/
theorem result_eq (x0 : (⟨S8192x4096, .f32⟩ : BufTy).Contents (Elt Ideal)) (x1 : (⟨S4096x4096, .f32⟩ : BufTy).Contents (Elt Ideal)) :
    val_main_v9 (F := Ideal) x0 x1 = G x0 x1 := by
  funext i
  rw [val_main_v9_apply]
  show _ = entry x0 x1 ⟨(i 0).val, (i 0).isLt⟩ ⟨(i 1).val, (i 1).isLt⟩
  unfold entry
  refine Finset.sum_congr rfl fun k _ => ?_
  have el : lidx_main_v9 i k = ix2 (⟨(i 0).val, (i 0).isLt⟩ : Fin 8192) k :=
    funext fun a => by match a with | ⟨0, _⟩ => rfl | ⟨1, _⟩ => rfl
  have er : ridx_main_v9 i k = ix2 (⟨(i 1).val, (i 1).isLt⟩ : Fin 4096) k :=
    funext fun a => by match a with | ⟨0, _⟩ => rfl | ⟨1, _⟩ => rfl
  rw [el, er, val_main_v8_apply, kron_apply]
  rfl

end Cert.ReferenceIdeal.RefValue

end
-- ==== Proof.lean ====
/-
  A block-diagonal linear layer: y = x · (w ⊙ mask)ᵀ, where mask keeps the 64 diagonal blocks of 64 x 64 entries of the
  4096 x 4096 weight and x has 8192 rows.

  The kernel tiles the output in 2048 x 512 tiles. The tile at column tile j needs only the diagonal 512 x 512 tile of
  w, which it masks to its 8 diagonal blocks of 64 x 64 and multiplies against the matching 2048 x 512 tile of x. The
  reference masks the whole weight (the mask as a Kronecker product of the 64 x 64 identity with a block of ones) and
  multiplies x against all 4096 columns. On the extended reals the two agree entry by entry: the 3584 columns outside
  tile j carry mask 0, each such term is x * (w * 0) = 0 whatever x and w are, and inside the tile the two masks are the
  same function of the positions. The rounding of the kernel's operands to bf16 is the identity there. No finiteness of
  the inputs is used.

  Proof/BlockDiagSum.lean  the masked product as one function G of the two arrays, and the sum over a tile
  Proof/BodyMask.lean      the mask the kernel body computes from its row and column numbers
  Proof/BodyValue.lean     what the kernel body stores, at an index
  Proof/TileValue.lean     the 32 tiles cover the output array: the kernel's run ends at G
  Proof/RefValue.lean      the reference's run ends at G
-/
import proofs.«106740_j78958678769810_1_alg».proof.Defs
import proofs.«106740_j78958678769810_1_alg».proof.Proof.Gen.Kernel
import proofs.«106740_j78958678769810_1_alg».proof.Proof.Gen.Kernel.Skeleton
import proofs.«106740_j78958678769810_1_alg».proof.Proof.Gen.Kernel.Launch
import proofs.«106740_j78958678769810_1_alg».proof.Proof.Gen.Kernel.Points
import proofs.«106740_j78958678769810_1_alg».proof.Proof.Gen.Kernel.Frame
import proofs.«106740_j78958678769810_1_alg».proof.Proof.Gen.KernelIdeal
import proofs.«106740_j78958678769810_1_alg».proof.Proof.Gen.KernelIdeal.Skeleton
import proofs.«106740_j78958678769810_1_alg».proof.Proof.Gen.KernelIdeal.Launch
import proofs.«106740_j78958678769810_1_alg».proof.Proof.Gen.KernelIdeal.Points
import proofs.«106740_j78958678769810_1_alg».proof.Proof.Gen.KernelIdeal.Frame
import proofs.«106740_j78958678769810_1_alg».proof.Proof.Gen.ReferenceIdeal
import proofs.«106740_j78958678769810_1_alg».proof.Proof.Gen.Pre_finite_inputs
import proofs.«106740_j78958678769810_1_alg».proof.Proof.Gen.KernelIdeal.Value
import proofs.«106740_j78958678769810_1_alg».proof.Proof.Gen.ReferenceIdeal.Run
import proofs.«106740_j78958678769810_1_alg».proof.Proof.Gen.ReferenceIdeal.Read
import proofs.«106740_j78958678769810_1_alg».proof.Proof.TileValue
import proofs.«106740_j78958678769810_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten on the way to the extended reals. -/
theorem preserves : Cert.preserves_Kernel_KernelIdeal := trivial

/-- The kernel's result array ends at the masked product of its arguments (the tiles), the reference's at the masked
    product of its own (the whole sum), and the arguments agree. -/
theorem algebraic : Cert.algebraic_KernelIdeal_ReferenceIdeal := by
  intro m ρ m' ρ' _ hagree
  refine ⟨_, Cert.KernelIdeal.TileValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
